-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S512x512 : Shape := ⟨2, ![512, 512]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32x1024x1024 .f32) (main_arg1 : FVec F S512x512 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32x1024x1024 : Shape := ⟨3, ![32, 1024, 1024]⟩
abbrev S512x512 : Shape := ⟨2, ![512, 512]⟩
abbrev S32x32x32x1024 : Shape := ⟨4, ![32, 32, 32, 1024]⟩
abbrev S32x32x2x32x512 : Shape := ⟨5, ![32, 32, 2, 32, 512]⟩
abbrev S1x32x32x1024 : Shape := ⟨4, ![1, 32, 32, 1024]⟩
abbrev S1x32x2x32x512 : Shape := ⟨5, ![1, 32, 2, 32, 512]⟩
abbrev S32x32x1024 : Shape := ⟨3, ![32, 32, 1024]⟩
abbrev S32x32x512 : Shape := ⟨3, ![32, 32, 512]⟩
abbrev S1024x512 : Shape := ⟨2, ![1024, 512]⟩
abbrev S2048x512 : Shape := ⟨2, ![2048, 512]⟩
abbrev S1x32x1x32x512 : Shape := ⟨5, ![1, 32, 1, 32, 512]⟩
abbrev S32x2048x512 : Shape := ⟨3, ![32, 2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S32x1024x1024, .f32⟩
  | .hbm, ⟨1, _⟩ => ⟨S512x512, .f32⟩
  | .hbm, ⟨2, _⟩ => ⟨S32x32x32x1024, .f32⟩
  | .hbm, ⟨3, _⟩ => ⟨S512x512, .bf16⟩
  | .hbm, ⟨4, _⟩ => ⟨S32x32x2x32x512, .f32⟩
  | .hbm, ⟨5, _⟩ => ⟨S32x2048x512, .f32⟩
  | .local _ .vmem, ⟨0, _⟩ => ⟨S1x32x32x1024, .f32⟩
  | .local _ .vmem, ⟨1, _⟩ => ⟨S1x32x32x1024, .f32⟩
  | .local _ .vmem, ⟨2, _⟩ => ⟨S512x512, .bf16⟩
  | .local _ .vmem, ⟨3, _⟩ => ⟨S1x32x2x32x512, .f32⟩
  | .local _ .vmem, ⟨4, _⟩ => ⟨S1x32x2x32x512, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x2x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1024x1024_S32x32x32x1024 : S32x1024x1024.ShapeCasts S32x32x32x1024
  bitsLt_bf16_f32 : FTy.bits .bf16 < FTy.bits .f32
  inb_S1x32x32x1024_S1x32x32x1024_0_0_0_0 : ∀ a, (![0, 0, 0, 0] : Fin 4 → Nat) a + S1x32x32x1024.size a ≤ S1x32x32x1024.size a
  h_S1x32x32x1024 : 0 < S1x32x32x1024.numel
  shapeCasts_S1x32x32x1024_S32x32x1024 : S1x32x32x1024.ShapeCasts S32x32x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S32x32x1024_o0_0_0_S32x32x512 : S32x32x1024.Slices ![0, 0, 0] S32x32x512
  shapeCasts_S32x32x512_S1024x512 : S32x32x512.ShapeCasts S1024x512
  slices_S32x32x1024_o0_0_512_S32x32x512 : S32x32x1024.Slices ![0, 0, 512] S32x32x512
  concatenates_S1024x512_S1024x512_S2048x512_d0 : Shape.Concatenates [S1024x512, S1024x512] S2048x512 0
  slices_S2048x512_o0_0_S1024x512 : S2048x512.Slices ![0, 0] S1024x512
  shapeCasts_S1024x512_S32x32x512 : S1024x512.ShapeCasts S32x32x512
  slices_S2048x512_o1024_0_S1024x512 : S2048x512.Slices ![1024, 0] S1024x512
  inb_S1x32x2x32x512_S1x32x1x32x512_0_0_0_0_0 : ∀ a, (![0, 0, 0, 0, 0] : Fin 5 → Nat) a + S1x32x1x32x512.size a ≤ S1x32x2x32x512.size a
  h_S1x32x1x32x512 : 0 < S1x32x1x32x512.numel
  shapeCasts_S1x32x1x32x512_S32x32x512 : S1x32x1x32x512.ShapeCasts S32x32x512
  shapeCasts_S32x32x512_S1x32x1x32x512 : S32x32x512.ShapeCasts S1x32x1x32x512
  inb_S1x32x2x32x512_S1x32x1x32x512_0_0_1_0_0 : ∀ a, (![0, 0, 1, 0, 0] : Fin 5 → Nat) a + S1x32x1x32x512.size a ≤ S1x32x2x32x512.size a
  shapeCasts_S32x32x2x32x512_S32x2048x512 : S32x32x2x32x512.ShapeCasts S32x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x1024.size a ≤ S32x32x32x1024.size a
  hwx0_0 : ∀ i : grid0.Coords, EltTy.bits .f32 = 32 ∨ (Rect.block (s := S32x32x32x1024) S1x32x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x32x512.size a ≤ S32x32x2x32x512.size a
  hwx0_2 : ∀ i : grid0.Coords, EltTy.bits .f32 = 32 ∨ (Rect.block (s := S32x32x2x32x512) S1x32x2x32x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1x32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x2x32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S512x512 : Shape := ⟨2, ![512, 512]⟩
abbrev S32x32x32x1024 : Shape := ⟨4, ![32, 32, 32, 1024]⟩
abbrev S32x32x32x512 : Shape := ⟨4, ![32, 32, 32, 512]⟩
abbrev S32x32x1x32x512 : Shape := ⟨5, ![32, 32, 1, 32, 512]⟩
abbrev S32x32x2x32x512 : Shape := ⟨5, ![32, 32, 2, 32, 512]⟩
abbrev S32x64x32x512 : Shape := ⟨4, ![32, 64, 32, 512]⟩
abbrev S32x2048x512 : Shape := ⟨3, ![32, 2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S512x512, .f32⟩
  | .hbm, ⟨2, _⟩ => ⟨S32x32x32x1024, .f32⟩
  | .hbm, ⟨3, _⟩ => ⟨S32x32x32x512, .f32⟩
  | .hbm, ⟨4, _⟩ => ⟨S32x32x32x512, .f32⟩
  | .hbm, ⟨5, _⟩ => ⟨S32x32x1x32x512, .f32⟩
  | .hbm, ⟨6, _⟩ => ⟨S32x32x1x32x512, .f32⟩
  | .hbm, ⟨7, _⟩ => ⟨S32x32x2x32x512, .f32⟩
  | .hbm, ⟨8, _⟩ => ⟨S32x64x32x512, .f32⟩
  | .hbm, ⟨9, _⟩ => ⟨S32x64x32x512, .f32⟩
  | .hbm, ⟨10, _⟩ => ⟨S32x2048x512, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S32x1024x1024_S32x32x32x1024 : S32x1024x1024.ShapeCasts S32x32x32x1024
  slices_S32x32x32x1024_S32x32x32x512_0_0_0_0 : S32x32x32x1024.Slices ![0, 0, 0, 0] S32x32x32x512
  slices_S32x32x32x1024_S32x32x32x512_0_0_0_512 : S32x32x32x1024.Slices ![0, 0, 0, 512] S32x32x32x512
  bcast_S32x32x32x512_S32x32x1x32x512_0_1_3_4 : S32x32x32x512.BroadcastsInDim S32x32x1x32x512 (![0, 1, 3, 4] : Fin 4 → Fin S32x32x1x32x512.rank)
  concatenates_S32x32x1x32x512_S32x32x1x32x512_S32x32x2x32x512_d2 : Shape.Concatenates [S32x32x1x32x512, S32x32x1x32x512] S32x32x2x32x512 2
  shapeCasts_S32x32x2x32x512_S32x64x32x512 : S32x32x2x32x512.ShapeCasts S32x64x32x512
  shapeCasts_S32x64x32x512_S32x2048x512 : S32x64x32x512.ShapeCasts S32x2048x512
  dot_S32x64x32x512_S512x512_S32x64x32x512_3_0_012_1_n_n_wf : DotDims.WF S32x64x32x512 S512x512 S32x64x32x512 [3] [0] [0, 1, 2] [1] [] []

variable [Facts₀]

def dot_S32x64x32x512_S512x512_S32x64x32x512_3_0_012_1_n_n : DotDims S32x64x32x512 S512x512 S32x64x32x512 where
  lhsContracting := [3]
  rhsContracting := [0]
  lhsNonContracting := [0, 1, 2]
  rhsNonContracting := [1]
  lhsBatch := []
  rhsBatch := []
  wf := dot_S32x64x32x512_S512x512_S32x64x32x512_3_0_012_1_n_n_wf

class Facts : Prop extends Facts₀ where

variable [Facts]
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Spec.lean ====
/-
  The specification both programs meet.

  An input image is read as 32 images of 32 x 32 pixels with 1024 channels each.  Every pixel is cut
  into its two halves of 512 channels, and each half is sent through one 512 x 512 weight:
  `proj x w b h u p d` is output channel `d` of half `u` of pixel `(h, p)` of image `b`, the sum over
  the half's channels `q` of `x[b, h, p, 512 u + q] * w[q, d]`.  The sum is taken as it stands on the
  extended reals; nothing about it is rearranged, so no finiteness is needed anywhere.

  The projected halves are laid out in two ways that name the same element: `stacked`, over the index
  `(b, h, u, p, d)`, and `tokens`, over `(b, r, d)` with the token row `r = 64 h + 32 u + p`, which is
  `stacked` read in row-major order (`shapeCast_stacked`).
-/
import Idealize.ShloMosaic.Lib.Pipeline.Value
import Idealize.ShloMosaic.Lib.ValueIdx

noncomputable section

open scoped BigOperators

namespace Cert.Spec

open Idealize.ShloMosaic Idealize.ShloMosaic.ValueIdx

/-- Channel `q` of half `u` of a pixel is channel `512 u + q` of the pixel. -/
abbrev chan (u : Fin 2) (q : Fin 512) : Fin 1024 :=
  ⟨u.val * 512 + q.val, by have := u.isLt; have := q.isLt; omega⟩

/-- Output channel `d` of half `u` of pixel `(h, p)` of image `b`, projected by the weight. -/
def proj (x : (⟨4, ![32, 32, 32, 1024]⟩ : Shape).Idx → EReal) (w : (⟨2, ![512, 512]⟩ : Shape).Idx → EReal)
    (b h : Fin 32) (u : Fin 2) (p : Fin 32) (d : Fin 512) : EReal :=
  ∑ q : Fin 512, x (ix4 b h p (chan u q)) * w (ix2 q d)

/-- The projected halves over the index `(b, h, u, p, d)`. -/
def stacked (x : (⟨4, ![32, 32, 32, 1024]⟩ : Shape).Idx → EReal) (w : (⟨2, ![512, 512]⟩ : Shape).Idx → EReal) :
    (⟨5, ![32, 32, 2, 32, 512]⟩ : Shape).Idx → EReal :=
  fun y => proj x w (y 0) (y 1) (y 2) (y 3) (y 4)

/-- The row `h` of pixels a token row `r = 64 h + 32 u + p` comes from. -/
abbrev rowOf (r : Fin 2048) : Fin 32 := ⟨r.val / 64, by have := r.isLt; omega⟩
/-- The half `u` it holds. -/
abbrev halfOf (r : Fin 2048) : Fin 2 := ⟨r.val / 32 % 2, by omega⟩
/-- The pixel `p` of the row it holds. -/
abbrev colOf (r : Fin 2048) : Fin 32 := ⟨r.val % 32, by omega⟩

/-- The projected halves as tokens: row `r` of image `b` is half `halfOf r` of pixel `(rowOf r, colOf r)`. -/
def tokens (x : (⟨4, ![32, 32, 32, 1024]⟩ : Shape).Idx → EReal) (w : (⟨2, ![512, 512]⟩ : Shape).Idx → EReal) :
    (⟨3, ![32, 2048, 512]⟩ : Shape).Idx → EReal :=
  fun i => proj x w (i 0) (rowOf (i 1)) (halfOf (i 1)) (colOf (i 1)) (i 2)

/-- `stacked` at an index given by its coordinates. -/
theorem stacked_apply (x : (⟨4, ![32, 32, 32, 1024]⟩ : Shape).Idx → EReal) (w : (⟨2, ![512, 512]⟩ : Shape).Idx → EReal)
    (b h : Fin 32) (u : Fin 2) (p : Fin 32) (d : Fin 512) : stacked x w (ix5 b h u p d) = proj x w b h u p d := rfl

/-- `tokens` at an index given by its coordinates. -/
theorem tokens_apply (x : (⟨4, ![32, 32, 32, 1024]⟩ : Shape).Idx → EReal) (w : (⟨2, ![512, 512]⟩ : Shape).Idx → EReal)
    (b : Fin 32) (r : Fin 2048) (d : Fin 512) :
    tokens x w (ix3 b r d) = proj x w b (rowOf r) (halfOf r) (colOf r) d := rfl

/-- `tokens` is `stacked` in row-major order: the row-major position of `(b, h, u, p, d)` among
    32 x 32 x 2 x 32 x 512 is that of `(b, 64 h + 32 u + p, d)` among 32 x 2048 x 512. -/
theorem shapeCast_stacked (x : (⟨4, ![32, 32, 32, 1024]⟩ : Shape).Idx → EReal) (w : (⟨2, ![512, 512]⟩ : Shape).Idx → EReal)
    (h : (⟨5, ![32, 32, 2, 32, 512]⟩ : Shape).ShapeCasts ⟨3, ![32, 2048, 512]⟩) :
    shapeCast ⟨3, ![32, 2048, 512]⟩ (stacked x w) h = tokens x w := by
  funext i
  refine (shapeCast_apply (stacked x w) h i (ix5 (i 0) (rowOf (i 1)) (halfOf (i 1)) (colOf (i 1)) (i 2)) ?_).trans rfl
  rewrite [Shape.rowMajor_val_five, Shape.rowMajor_val_three]
  have h1 : (i 1).val < 2048 := (i 1).isLt
  show ((((i 0).val * 32 + (i 1).val / 64) * 2 + (i 1).val / 32 % 2) * 32 + (i 1).val % 32) * 512 + (i 2).val
    = ((i 0).val * 2048 + (i 1).val) * 512 + (i 2).val
  omega

end Cert.Spec

end
-- ==== Proof.Body.lean ====
/-
  What the kernel's body leaves in its output block.

  The body loads one image `x0` (a block `1 x 32 x 32 x 1024`: pixels `(h, p)`, 1024 channels) and the
  weight `x1` (`512 x 512`).  It cuts the image's channels into the two halves, lists each half's 1024
  pixels as rows `32 h + p`, puts the second half's rows under the first's (row `1024 u + 32 h + p`),
  multiplies the `2048 x 512` matrix by the weight into a zero accumulator, and stores rows
  `0 .. 1023` at position `u = 0` and rows `1024 .. 2047` at `u = 1` of the output block
  `1 x 32 x 2 x 32 x 512`.  So the block holds, at `(0, h, u, p, d)`, the sum over `q` of
  `x0[0, h, p, 512 u + q] * x1[q, d]` (`blockAt`): changes of float format are the identity on the
  extended reals, and a matrix product into zero is the plain sum.
-/
import proofs.«128692_j66881230733751_2_alg».proof.Proof.Gen.KernelIdeal.Frame
import proofs.«128692_j66881230733751_2_alg».proof.Proof.LibDense
import proofs.«128692_j66881230733751_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Spec (chan)

/-- Row `32 h + p` of a half's pixel list. -/
abbrev pix (h p : Fin 32) : Fin 1024 := ⟨h.val * 32 + p.val, by have := h.isLt; have := p.isLt; omega⟩
/-- Row `1024 u + 32 h + p` of the two lists, one under the other. -/
abbrev catRow (u : Fin 2) (h p : Fin 32) : Fin 2048 :=
  ⟨u.val * 1024 + (h.val * 32 + p.val), by have := u.isLt; have := h.isLt; have := p.isLt; omega⟩

/-- The projected half `u` of pixel `(h, p)` of the loaded image at output channel `d`. -/
def blockAt (x0 : Vec Ideal S1x32x32x1024 .f32) (x1 : Vec Ideal S512x512 .bf16) (h : Fin 32) (u : Fin 2) (p : Fin 32) (d : Fin 512) : EReal :=
  ∑ q : Fin 512, x0 (ix4 (⟨0, Nat.one_pos⟩ : Fin 1) h p (chan u q)) * x1 (ix2 q d)

/-- The output block: `blockAt` at the block index's coordinates. -/
def blockOut (x0 : Vec Ideal S1x32x32x1024 .f32) (x1 : Vec Ideal S512x512 .bf16) : Vec Ideal S1x32x2x32x512 .f32 :=
  fun y => blockAt x0 x1 ⟨(y 1).val, (y 1).isLt⟩ ⟨(y 2).val, (y 2).isLt⟩ ⟨(y 3).val, (y 3).isLt⟩ ⟨(y 4).val, (y 4).isLt⟩

/-- `blockOut` at an index whose coordinates are known. -/
theorem blockOut_at (x0 : Vec Ideal S1x32x32x1024 .f32) (x1 : Vec Ideal S512x512 .bf16) (y : S1x32x2x32x512.Idx)
    (h : Fin 32) (u : Fin 2) (p : Fin 32) (d : Fin 512)
    (h1 : (y 1).val = h.val) (h2 : (y 2).val = u.val) (h3 : (y 3).val = p.val) (h4 : (y 4).val = d.val) :
    blockOut x0 x1 y = blockAt x0 x1 h u p d := by
  have e1 : (⟨(y 1).val, (y 1).isLt⟩ : Fin 32) = h := Fin.ext h1
  have e2 : (⟨(y 2).val, (y 2).isLt⟩ : Fin 2) = u := Fin.ext h2
  have e3 : (⟨(y 3).val, (y 3).isLt⟩ : Fin 32) = p := Fin.ext h3
  have e4 : (⟨(y 4).val, (y 4).isLt⟩ : Fin 512) = d := Fin.ext h4
  show blockAt x0 x1 ⟨(y 1).val, (y 1).isLt⟩ ⟨(y 2).val, (y 2).isLt⟩ ⟨(y 3).val, (y 3).isLt⟩ ⟨(y 4).val, (y 4).isLt⟩ = _
  rw [e1, e2, e3, e4]

/-! ## The matrix product's operand indices -/

theorem lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-! ## The left operand: the two halves' pixel lists, one under the other -/

/-- Row `1024 u + 32 h + p`, column `q`, of the joined lists is channel `512 u + q` of pixel `(h, p)`. -/
theorem lhs_apply (v : FVec Ideal S32x32x1024 .bf16)
    (hs0 : S32x32x1024.Slices ![0, 0, 0] S32x32x512) (hs1 : S32x32x1024.Slices ![0, 0, 512] S32x32x512)
    (hc : S32x32x512.ShapeCasts S1024x512) (hcat : Shape.Concatenates [S1024x512, S1024x512] S2048x512 0)
    (u : Fin 2) (h p : Fin 32) (q : Fin 512) :
    concatenate S2048x512 0 [⟨S1024x512, shapeCast S1024x512 (extractStridedSlice S32x32x512 ![0, 0, 0] v hs0) hc⟩,
        ⟨S1024x512, shapeCast S1024x512 (extractStridedSlice S32x32x512 ![0, 0, 512] v hs1) hc⟩] hcat (ix2 (catRow u h p) q)
      = v (ix3 h p (chan u q)) := by
  have hu := u.isLt
  have hh := h.isLt
  have hp := p.isLt
  have hq := q.isLt
  rcases (by omega : u.val = 0 ∨ u.val = 1) with h0 | h1
  · refine (concatenate_pair_apply_left (s₁ := S1024x512) (s₂ := S1024x512) (0 : Fin S2048x512.rank) _ _ hcat (ix2 (catRow u h p) q) rfl (ix2 (pix h p) q) ?_).trans ?_
    · intro a
      match a with
      | ⟨0, _⟩ => show h.val * 32 + p.val = u.val * 1024 + (h.val * 32 + p.val); omega
      | ⟨1, _⟩ => rfl
    · refine (shapeCast_apply _ hc (ix2 (pix h p) q) (ix3 h p q) ?_).trans ?_
      · rewrite [Shape.rowMajor_val_three, Shape.rowMajor_val_two]
        show (h.val * 32 + p.val) * 512 + q.val = (h.val * 32 + p.val) * 512 + q.val
        rfl
      · refine extractStridedSlice_apply _ v hs0 (ix3 h p q) (ix3 h p (chan u q)) ?_
        intro a
        match a with
        | ⟨0, _⟩ => show h.val = 0 + h.val; omega
        | ⟨1, _⟩ => show p.val = 0 + p.val; omega
        | ⟨2, _⟩ => show u.val * 512 + q.val = 0 + q.val; omega
  · refine (concatenate_pair_apply_right (s₁ := S1024x512) (s₂ := S1024x512) (0 : Fin S2048x512.rank) _ _ hcat (ix2 (catRow u h p) q) rfl rfl (ix2 (pix h p) q) ?_ ?_).trans ?_
    · intro a ha
      match a with
      | ⟨0, _⟩ => exact absurd rfl ha
      | ⟨1, _⟩ => rfl
    · show h.val * 32 + p.val + 1024 = u.val * 1024 + (h.val * 32 + p.val)
      omega
    · refine (shapeCast_apply _ hc (ix2 (pix h p) q) (ix3 h p q) ?_).trans ?_
      · rewrite [Shape.rowMajor_val_three, Shape.rowMajor_val_two]
        show (h.val * 32 + p.val) * 512 + q.val = (h.val * 32 + p.val) * 512 + q.val
        rfl
      · refine extractStridedSlice_apply _ v hs1 (ix3 h p q) (ix3 h p (chan u q)) ?_
        intro a
        match a with
        | ⟨0, _⟩ => show h.val = 0 + h.val; omega
        | ⟨1, _⟩ => show p.val = 0 + p.val; omega
        | ⟨2, _⟩ => show u.val * 512 + q.val = 512 + q.val; omega

/-! ## The payloads at an index -/

/-- The matrix product at row `1024 u + 32 h + p`, column `d`. -/
theorem pay1_apply (v0 : Vec Ideal S1x32x32x1024 .f32) (v3 : Vec Ideal S512x512 .bf16) (u : Fin 2) (h p : Fin 32) (d : Fin 512) :
    k0_pay1 (F := Ideal) v0 v3 (ix2 (catRow u h p) d) = blockAt v0 v3 h u p d := by
  unfold k0_pay1 blockAt
  refine (Cert.LibDense.matmul_zero_apply dot_S2048x512_S512x512_S2048x512_1_0_0_1_n_n rfl rfl lhs0 lhs1 rhs0 rhs1 none _ _ (catRow u h p) d).trans ?_
  refine Finset.sum_congr rfl fun q _ => ?_
  refine congrArg₂ (· * ·) ?_ ?_
  · refine (lhs_apply _ _ _ _ _ u h p q).trans ?_
    refine shapeCast_apply v0 shapeCasts_S1x32x32x1024_S32x32x1024 (ix3 h p (chan u q)) (ix4 (⟨0, Nat.one_pos⟩ : Fin 1) h p (chan u q)) ?_
    rewrite [Shape.rowMajor_val_four, Shape.rowMajor_val_three]
    show ((0 * 32 + h.val) * 32 + p.val) * 1024 + (u.val * 512 + q.val) = (h.val * 32 + p.val) * 1024 + (u.val * 512 + q.val)
    omega
  · exact congrFun (shapeCast_self v3 _) (ix2 q d)

/-- The first store's payload at `(0, h, 0, p, d)`: rows `0 .. 1023` of the product. -/
theorem pay2_apply (v0 : Vec Ideal S1x32x32x1024 .f32) (v3 : Vec Ideal S512x512 .bf16) (h p : Fin 32) (d : Fin 512) :
    k0_pay2 (F := Ideal) v0 v3 (ix5 (⟨0, Nat.one_pos⟩ : Fin 1) h (⟨0, Nat.one_pos⟩ : Fin 1) p d) = blockAt v0 v3 h ⟨0, by decide⟩ p d := by
  have hh := h.isLt
  have hp := p.isLt
  have hd := d.isLt
  unfold k0_pay2
  refine (shapeCast_apply _ shapeCasts_S32x32x512_S1x32x1x32x512 _ (ix3 h p d) ?_).trans ?_
  · rewrite [Shape.rowMajor_val_three, Shape.rowMajor_val_five]
    show (h.val * 32 + p.val) * 512 + d.val = ((((0 * 32 + h.val) * 1 + 0) * 32 + p.val) * 512 + d.val)
    omega
  refine (shapeCast_apply _ shapeCasts_S1024x512_S32x32x512 (ix3 h p d) (ix2 (pix h p) d) ?_).trans ?_
  · rewrite [Shape.rowMajor_val_two, Shape.rowMajor_val_three]
    show (h.val * 32 + p.val) * 512 + d.val = (h.val * 32 + p.val) * 512 + d.val
    rfl
  refine (extractStridedSlice_apply _ _ slices_S2048x512_o0_0_S1024x512 (ix2 (pix h p) d) (ix2 (catRow ⟨0, by decide⟩ h p) d) ?_).trans ?_
  · intro a
    match a with
    | ⟨0, _⟩ => show 0 * 1024 + (h.val * 32 + p.val) = 0 + (h.val * 32 + p.val); omega
    | ⟨1, _⟩ => show d.val = 0 + d.val; omega
  exact pay1_apply v0 v3 ⟨0, by decide⟩ h p d

/-- The second store's payload at `(0, h, 0, p, d)`: rows `1024 .. 2047` of the product. -/
theorem pay3_apply (v0 : Vec Ideal S1x32x32x1024 .f32) (v3 : Vec Ideal S512x512 .bf16) (h p : Fin 32) (d : Fin 512) :
    k0_pay3 (F := Ideal) v0 v3 (ix5 (⟨0, Nat.one_pos⟩ : Fin 1) h (⟨0, Nat.one_pos⟩ : Fin 1) p d) = blockAt v0 v3 h ⟨1, by decide⟩ p d := by
  have hh := h.isLt
  have hp := p.isLt
  have hd := d.isLt
  unfold k0_pay3
  refine (shapeCast_apply _ shapeCasts_S32x32x512_S1x32x1x32x512 _ (ix3 h p d) ?_).trans ?_
  · rewrite [Shape.rowMajor_val_three, Shape.rowMajor_val_five]
    show (h.val * 32 + p.val) * 512 + d.val = ((((0 * 32 + h.val) * 1 + 0) * 32 + p.val) * 512 + d.val)
    omega
  refine (shapeCast_apply _ shapeCasts_S1024x512_S32x32x512 (ix3 h p d) (ix2 (pix h p) d) ?_).trans ?_
  · rewrite [Shape.rowMajor_val_two, Shape.rowMajor_val_three]
    show (h.val * 32 + p.val) * 512 + d.val = (h.val * 32 + p.val) * 512 + d.val
    rfl
  refine (extractStridedSlice_apply _ _ slices_S2048x512_o1024_0_S1024x512 (ix2 (pix h p) d) (ix2 (catRow ⟨1, by decide⟩ h p) d) ?_).trans ?_
  · intro a
    match a with
    | ⟨0, _⟩ => show 1 * 1024 + (h.val * 32 + p.val) = 1024 + (h.val * 32 + p.val); omega
    | ⟨1, _⟩ => show d.val = 0 + d.val; omega
  exact pay1_apply v0 v3 ⟨1, by decide⟩ h p d

/-! ## The block after the body -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Every index of a `1 x 32 x 1 x 32 x 512` piece is `(0, h, 0, p, d)`. -/
theorem piece_idx (z : S1x32x1x32x512.Idx) :
    ∃ (h p : Fin 32) (d : Fin 512), z = ix5 (⟨0, Nat.one_pos⟩ : Fin 1) h (⟨0, Nat.one_pos⟩ : Fin 1) p d := by
  refine ⟨⟨(z 1).val, (z 1).isLt⟩, ⟨(z 3).val, (z 3).isLt⟩, ⟨(z 4).val, (z 4).isLt⟩, funext fun a => Fin.ext ?_⟩
  match a with
  | ⟨0, _⟩ => show (z 0).val = 0; have h : (z 0).val < 1 := (z 0).isLt; omega
  | ⟨1, _⟩ => rfl
  | ⟨2, _⟩ => show (z 2).val = 0; have h : (z 2).val < 1 := (z 2).isLt; omega
  | ⟨3, _⟩ => rfl
  | ⟨4, _⟩ => rfl

/-- The store at position `u = 1` agrees with `blockOut` under its rectangle. -/
theorem piece3 (x0 : Vec Ideal S1x32x32x1024 .f32) (x1 : Vec Ideal S512x512 .bf16) (z : S1x32x1x32x512.Idx) :
    k0_pay3 (F := Ideal) (View.ld x0 r0_0) (View.ld x1 r0_1) z = blockOut x0 x1 (r0_3.emb z) := by
  rw [View.ld_unit_zero (S := S1x32x32x1024) hz4, View.ld_unit_zero (S := S512x512) hz2]
  obtain ⟨h, p, d, rfl⟩ := piece_idx z
  rw [pay3_apply]
  refine (blockOut_at x0 x1 _ h ⟨1, by decide⟩ p d ?_ ?_ ?_ ?_).symm
  · show 0 + 1 * h.val = h.val; omega
  · show 1 + 1 * 0 = 1; rfl
  · show 0 + 1 * p.val = p.val; omega
  · show 0 + 1 * d.val = d.val; omega

/-- The store at position `u = 0` agrees with `blockOut` under its rectangle. -/
theorem piece2 (x0 : Vec Ideal S1x32x32x1024 .f32) (x1 : Vec Ideal S512x512 .bf16) (z : S1x32x1x32x512.Idx) :
    k0_pay2 (F := Ideal) (View.ld x0 r0_0) (View.ld x1 r0_1) z = blockOut x0 x1 (r0_2.emb z) := by
  rw [View.ld_unit_zero (S := S1x32x32x1024) hz4, View.ld_unit_zero (S := S512x512) hz2]
  obtain ⟨h, p, d, rfl⟩ := piece_idx z
  rw [pay2_apply]
  refine (blockOut_at x0 x1 _ h ⟨0, by decide⟩ p d ?_ ?_ ?_ ?_).symm
  · show 0 + 1 * h.val = h.val; omega
  · show 0 + 1 * 0 = 0; rfl
  · show 0 + 1 * p.val = p.val; omega
  · show 0 + 1 * d.val = d.val; omega

/-- The two stores tile the block and each agrees with `blockOut`: the block after the body is `blockOut`. -/
theorem out_eq (x0 : Vec Ideal S1x32x32x1024 .f32) (x1 : Vec Ideal S512x512 .bf16) :
    out0_2 (F := Ideal) x0 x1 = blockOut x0 x1 := by
  funext y
  unfold out0_2
  refine View.canon_apply_of_pieces (blockOut x0 x1) _ ?_ y (cover0_2 _ _ y)
  intro pc hpc z
  simp only [List.mem_cons, List.mem_nil_iff, or_false] at hpc
  rcases hpc with rfl | rfl
  · exact piece3 x0 x1 z
  · exact piece2 x0 x1 z

end Cert.KernelIdeal.Body

end
-- ==== Proof.KernelValue.lean ====
/-
  The kernel's result array.

  The grid has one point per image.  At point `t` the image block is image `t` of the reshaped input,
  the weight block is the whole weight (its change of float format is the identity on the extended
  reals), and the output block is block `t` of the `32 x 32 x 2 x 32 x 512` array.  By `Body.out_eq`
  what point `t` writes back is block `t` of `Spec.stacked` of the reshaped input and the weight; the 32
  blocks tile the array, so the array ends at `Spec.stacked`; and the reshape after the region reads it in
  row-major order, which is `Spec.tokens`.
-/
import proofs.«128692_j66881230733751_2_alg».proof.Proof.Gen.KernelIdeal.Frame
import proofs.«128692_j66881230733751_2_alg».proof.Proof.Body
import proofs.«128692_j66881230733751_2_alg».proof.Proof.Spec
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.KernelIdeal.Body

variable (m : (ℓ : Loc nD τ sig) → Buf (Elt Ideal) ℓ) (ρ : Dev nD → PrngReg)

/-- The region finds the input reshaped to images of pixels. -/
theorem V_main_v0 (c : Dev nD) :
    (V m c main_v0 : S32x32x32x1024.Idx → EReal) = shapeCast S32x32x32x1024 (m ((c : Thread nD τ).loc main_arg0)) shapeCasts_S32x1024x1024_S32x32x32x1024 := by
  show StableHlo.after hostOps0 (fun b => m (c, b)) (Proc.devRef .tc main_v0) = _
  after_results
  rfl

/-- The region finds the weight itself: its change of float format is the identity on the extended reals. -/
theorem V_main_v1 (c : Dev nD) : (V m c main_v1 : S512x512.Idx → EReal) = m ((c : Thread nD τ).loc main_arg1) := by
  show StableHlo.after hostOps0 (fun b => m (c, b)) (Proc.devRef .tc main_v1) = _
  after_results
  rfl

/-! ## The blocks at a grid point -/

/-- The grid has 32 points: point `t` is image `t`. -/
abbrev img (t : Fin cfg0.N) : Fin 32 := ⟨t.val, lt_of_lt_of_eq t.isLt N_0⟩

/-- The printed index maps over the grid: the image window and the output window are at block `t` on the
    image axis and at block 0 on every other axis; the weight window is at block `(0, 0)`. -/
theorem idx_facts : ∀ t : Fin cfg0.N, win0_0.index t (0 : Fin 4) = t.val
    ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 5) = t.val
    ∧ win0_2.index t (1 : Fin 5) = 0 ∧ win0_2.index t (2 : Fin 5) = 0 ∧ win0_2.index t (3 : Fin 5) = 0
    ∧ win0_2.index t (4 : Fin 5) = 0 :=
  (by decide +kernel : ∀ t : Fin grid0.N, _)

/-- The image block at point `t` is image `t` of the reshaped input. -/
theorem iblk0_apply (c : Dev nD) (t : Fin cfg0.N) (z : Fin 1) (h p : Fin 32) (k : Fin 1024) :
    (iblk m c 0 t : Vec Ideal S1x32x32x1024 .f32) (ix4 z h p k) = (V m c main_v0 : S32x32x32x1024.Idx → EReal) (ix4 (img t) h p k) := by
  obtain ⟨e0, e1, e2, e3, -⟩ := idx_facts t
  have hz : z.val < 1 := z.isLt
  show V m c main_v0 (((cfg0.win 0).blk t).view.emb (ix4 z h p k)) = V m c main_v0 (ix4 (img t) h p k)
  refine congrArg (V m c main_v0) (funext fun a => Fin.ext ?_)
  match a with
  | ⟨0, _⟩ => show win0_0.index t (0 : Fin 4) * 1 + 1 * z.val = t.val; omega
  | ⟨1, _⟩ => show win0_0.index t (1 : Fin 4) * 32 + 1 * h.val = h.val; omega
  | ⟨2, _⟩ => show win0_0.index t (2 : Fin 4) * 32 + 1 * p.val = p.val; omega
  | ⟨3, _⟩ => show win0_0.index t (3 : Fin 4) * 1024 + 1 * k.val = k.val; omega

/-- The weight block at every point is the whole weight. -/
theorem iblk1_apply (c : Dev nD) (t : Fin cfg0.N) (q d : Fin 512) :
    (iblk m c 1 t : Vec Ideal S512x512 .bf16) (ix2 q d) = (V m c main_v1 : S512x512.Idx → EReal) (ix2 q d) := by
  obtain ⟨-, -, -, -, e4, e5, -⟩ := idx_facts t
  show V m c main_v1 (((cfg0.win 1).blk t).view.emb (ix2 q d)) = V m c main_v1 (ix2 q d)
  refine congrArg (V m c main_v1) (funext fun a => Fin.ext ?_)
  match a with
  | ⟨0, _⟩ => show win0_1.index t (0 : Fin 2) * 512 + 1 * q.val = q.val; omega
  | ⟨1, _⟩ => show win0_1.index t (1 : Fin 2) * 512 + 1 * d.val = d.val; omega

/-- The body's output block at point `t`, entry by entry, is `Spec.stacked` under block `t` of the array. -/
theorem blk_eq (c : Dev nD) (t : Fin cfg0.N) (y : S1x32x2x32x512.Idx) :
    blockOut (iblk m c 0 t) (iblk m c 1 t) y
      = Cert.Spec.stacked (V m c main_v0) (V m c main_v1) (((cfg0.win 2).blk t).view.emb y) := by
  obtain ⟨z, h, u, p, d, rfl⟩ : ∃ (z : Fin 1) (h : Fin 32) (u : Fin 2) (p : Fin 32) (d : Fin 512), y = ix5 z h u p d :=
    ⟨y 0, y 1, y 2, y 3, y 4, eq_ix5 y⟩
  obtain ⟨-, -, -, -, -, -, e6, e7, e8, e9, e10⟩ := idx_facts t
  have hz : z.val < 1 := z.isLt
  have he : ((cfg0.win 2).blk t).view.emb (ix5 z h u p d) = ix5 (img t) h u p d := by
    funext a
    apply Fin.ext
    match a with
    | ⟨0, _⟩ => show win0_2.index t (0 : Fin 5) * 1 + 1 * z.val = t.val; omega
    | ⟨1, _⟩ => show win0_2.index t (1 : Fin 5) * 32 + 1 * h.val = h.val; omega
    | ⟨2, _⟩ => show win0_2.index t (2 : Fin 5) * 2 + 1 * u.val = u.val; omega
    | ⟨3, _⟩ => show win0_2.index t (3 : Fin 5) * 32 + 1 * p.val = p.val; omega
    | ⟨4, _⟩ => show win0_2.index t (4 : Fin 5) * 512 + 1 * d.val = d.val; omega
  rw [he, Cert.Spec.stacked_apply, blockOut_at _ _ _ h u p d rfl rfl rfl rfl]
  unfold blockAt Cert.Spec.proj
  refine Finset.sum_congr rfl fun q _ => ?_
  rw [iblk0_apply, iblk1_apply]

/-- What point `t` writes back is block `t` of `Spec.stacked` of the reshaped input and the weight. -/
theorem flushed_eq (c : Dev nD) (t : Fin cfg0.N) :
    (dats m 0 c).flushed 2 t
      = ((cfg0.win 2).blk t).view.read (Elt Ideal) (Cert.Spec.stacked (V m c main_v0) (V m c main_v1)) := by
  show (cfg0.win 2).cut (grid0.coords t) ((dats m 0 c).after 2 t) = _
  rw [after0_2, out_eq (iblk m c 0 t) (iblk m c 1 t)]
  funext j
  exact blk_eq m c t j

/-- An index of the array is in point `t`'s block iff each coordinate is in the block's range on its axis. -/
theorem mem_blk (t : Fin cfg0.N) (i : S32x32x2x32x512.Idx) :
    i ∈ ((cfg0.win 2).blk t).view.set ↔ ∀ a : Fin 5, win0_2.index t a * S1x32x2x32x512.size a ≤ (i a).val
      ∧ (i a).val < win0_2.index t a * S1x32x2x32x512.size a + S1x32x2x32x512.size a := by
  show i ∈ ((View.whole main_v2).slice (win0_2.rect t)).set ↔ _
  rw [View.set_slice_whole, Rect.mem_set_unit]
  exact Iff.rfl

/-- Every index `(b, h, u, p, d)` of the array is in the block of point `b`. -/
theorem cover (i : S32x32x2x32x512.Idx) :
    ∃ t : Fin cfg0.N, (cfg0.win 2).flush t = true ∧ i ∈ ((cfg0.win 2).blk t).view.set := by
  have h0 : (i 0).val < 32 := (i 0).isLt
  have h1 : (i 1).val < 32 := (i 1).isLt
  have h2 : (i 2).val < 2 := (i 2).isLt
  have h3 : (i 3).val < 32 := (i 3).isLt
  have h4 : (i 4).val < 512 := (i 4).isLt
  refine ⟨⟨(i 0).val, lt_of_lt_of_eq h0 N_0.symm⟩, flush0_2 _, ?_⟩
  obtain ⟨-, -, -, -, -, -, e6, e7, e8, e9, e10⟩ := idx_facts ⟨(i 0).val, lt_of_lt_of_eq h0 N_0.symm⟩
  rw [mem_blk]
  intro a
  match a with
  | ⟨0, _⟩ => show win0_2.index _ (0 : Fin 5) * 1 ≤ (i 0).val ∧ (i 0).val < win0_2.index _ (0 : Fin 5) * 1 + 1; rw [e6]; show (i 0).val * 1 ≤ (i 0).val ∧ (i 0).val < (i 0).val * 1 + 1; omega
  | ⟨1, _⟩ => show win0_2.index _ (1 : Fin 5) * 32 ≤ (i 1).val ∧ (i 1).val < win0_2.index _ (1 : Fin 5) * 32 + 32; rw [e7]; omega
  | ⟨2, _⟩ => show win0_2.index _ (2 : Fin 5) * 2 ≤ (i 2).val ∧ (i 2).val < win0_2.index _ (2 : Fin 5) * 2 + 2; rw [e8]; omega
  | ⟨3, _⟩ => show win0_2.index _ (3 : Fin 5) * 32 ≤ (i 3).val ∧ (i 3).val < win0_2.index _ (3 : Fin 5) * 32 + 32; rw [e9]; omega
  | ⟨4, _⟩ => show win0_2.index _ (4 : Fin 5) * 512 ≤ (i 4).val ∧ (i 4).val < win0_2.index _ (4 : Fin 5) * 512 + 512; rw [e10]; omega

/-- The region's output array ends at `Spec.stacked` of the reshaped input and the weight. -/
theorem final (c : Dev nD) :
    (dats m 0 c).arrAt 2 cfg0.N = Cert.Spec.stacked (V m c main_v0) (V m c main_v1) :=
  (dats m 0 c).arrAt_eq_of_cover 2 (Cert.Spec.stacked (V m c main_v0) (V m c main_v1)) (fun t _ => flushed_eq m c t) cover

/-- The reshape after the region reads that array in row-major order: the result is `Spec.tokens`. -/
theorem tail_eq (c : Dev nD) :
    Pipeline.afterTail₀ cfgs (dats m) 0 (V0 m) [hostOps1] c main_v3
      = Cert.Spec.tokens (V m c main_v0) (V m c main_v1) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Cert.Spec.stacked (V m c main_v0) (V m c main_v1) :=
    (Pipeline.withArrays_arr spec0 launch0.win.arr_inj c _ _ 2).trans (final m c)
  exact (congrArg (fun A => shapeCast S32x2048x512 A shapeCasts_S32x32x2x32x512_S32x2048x512) e).trans
    (Cert.Spec.shapeCast_stacked _ _ _)

/-! ## The run, read -/

/-- Every weakly fair execution of the kernel's program terminates with the result at `Spec.tokens` of the
    reshaped input and the weight, and the two arguments as launched. -/
theorem run : θ_run defs (onTc (τ := τ) (main (F := Ideal))) ⟨m, fun _ => 0, ρ⟩ fun r => ∀ c : Dev nD,
      r.2.mem ((c : Thread nD τ).loc main_v3)
        = Cert.Spec.tokens (shapeCast S32x32x32x1024 (m ((c : Thread nD τ).loc main_arg0)) shapeCasts_S32x1024x1024_S32x32x32x1024)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans
          ((tail_eq m c).trans (by rw [V_main_v0, V_main_v1])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computes the specification.

  Its program reshapes the input to images of pixels, slices the two halves of every pixel, gives each a
  unit axis and joins them along it (the stack), merges (row, half) into 64 rows, contracts the channel
  axis against the weight, and flattens (64 rows, 32 pixels) into 2048 token rows.  Read at one token
  `(b, r, d)`: the flattening sends it to row `r / 32` and pixel `r % 32`; the contraction is the sum over
  `q`; the merged row `r / 32` is row `r / 64`, half `(r / 32) % 2`; and the stack at half `u` is the slice
  of channels `512 u + q`.  That is `Spec.tokens` of the reshaped input, term by term.
-/
import proofs.«128692_j66881230733751_2_alg».proof.Proof.Gen.ReferenceIdeal.Read
import proofs.«128692_j66881230733751_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The stack of the two halves at `(b, h, u, p, q)` is the reshaped input at `(b, h, p, 512 u + q)`. -/
theorem stack_apply (x0 : (⟨S32x1024x1024, .f32⟩ : BufTy).Contents (Elt Ideal)) (b h : Fin 32) (u : Fin 2) (p : Fin 32) (q : Fin 512) :
    val_main_v5 (F := Ideal) x0 (ix5 b h u p q) = val_main_v0 (F := Ideal) x0 (ix4 b h p (Cert.Spec.chan u q)) := by
  unfold val_main_v5
  have hu : u.val < 2 := u.isLt
  rcases (by omega : u.val = 0 ∨ u.val = 1) with h0 | h1
  · refine (concatenate_pair_apply_left (s₁ := S32x32x1x32x512) (s₂ := S32x32x1x32x512) (2 : Fin S32x32x2x32x512.rank) _ _ _ (ix5 b h u p q) rfl (ix5 b h (⟨0, Nat.one_pos⟩ : Fin 1) p q) ?_).trans ?_
    · intro a
      match a with
      | ⟨0, _⟩ => rfl
      | ⟨1, _⟩ => rfl
      | ⟨2, _⟩ => exact h0.symm
      | ⟨3, _⟩ => rfl
      | ⟨4, _⟩ => rfl
    · rw [val_main_v3_apply, val_main_v1_apply]
      refine congrArg _ (funext fun a => Fin.ext ?_)
      match a with
      | ⟨0, _⟩ => rfl
      | ⟨1, _⟩ => rfl
      | ⟨2, _⟩ => rfl
      | ⟨3, _⟩ => show q.val = u.val * 512 + q.val; omega
  · refine (concatenate_pair_apply_right (s₁ := S32x32x1x32x512) (s₂ := S32x32x1x32x512) (2 : Fin S32x32x2x32x512.rank) _ _ _ (ix5 b h u p q) rfl rfl (ix5 b h (⟨0, Nat.one_pos⟩ : Fin 1) p q) ?_ ?_).trans ?_
    · intro a ha
      match a with
      | ⟨0, _⟩ => rfl
      | ⟨1, _⟩ => rfl
      | ⟨2, _⟩ => exact absurd rfl ha
      | ⟨3, _⟩ => rfl
      | ⟨4, _⟩ => rfl
    · show 0 + 1 = u.val
      omega
    · rw [val_main_v4_apply, val_main_v2_apply]
      refine congrArg _ (funext fun a => Fin.ext ?_)
      match a with
      | ⟨0, _⟩ => rfl
      | ⟨1, _⟩ => rfl
      | ⟨2, _⟩ => rfl
      | ⟨3, _⟩ => show 512 + q.val = u.val * 512 + q.val; omega

/-- Token `(b, r, d)` is entry `(b, r / 32, r % 32, d)` of the contraction's result. -/
theorem flatten_idx (b : Fin 32) (r : Fin 2048) (d : Fin 512) :
    idx_main_v8 (ix3 b r d) = ix4 b (⟨r.val / 32, by have := r.isLt; omega⟩ : Fin 64) (Cert.Spec.colOf r) d := by
  have h0 : b.val < 32 := b.isLt
  have h1 : r.val < 2048 := r.isLt
  have h2 : d.val < 512 := d.isLt
  funext a
  apply Fin.ext
  match a with
  | ⟨0, _⟩ => show ((b.val * 2048 + r.val) * 512 + d.val) / 1048576 = b.val; omega
  | ⟨1, _⟩ => show ((b.val * 2048 + r.val) * 512 + d.val) / 16384 % 64 = r.val / 32; omega
  | ⟨2, _⟩ => show ((b.val * 2048 + r.val) * 512 + d.val) / 512 % 32 = r.val % 32; omega
  | ⟨3, _⟩ => show ((b.val * 2048 + r.val) * 512 + d.val) % 512 = d.val; omega

/-- Merged row `k` of 64 is row `k / 2` of 32, half `k % 2`. -/
theorem merge_idx (b : Fin 32) (k : Fin 64) (p : Fin 32) (q : Fin 512) :
    idx_main_v6 (ix4 b k p q) = ix5 b (⟨k.val / 2, by have := k.isLt; omega⟩ : Fin 32) (⟨k.val % 2, by omega⟩ : Fin 2) p q := by
  have hb : b.val < 32 := b.isLt
  have hk : k.val < 64 := k.isLt
  have hp : p.val < 32 := p.isLt
  have hq : q.val < 512 := q.isLt
  funext a
  apply Fin.ext
  match a with
  | ⟨0, _⟩ => show (((b.val * 64 + k.val) * 32 + p.val) * 512 + q.val) / 1048576 = b.val; omega
  | ⟨1, _⟩ => show (((b.val * 64 + k.val) * 32 + p.val) * 512 + q.val) / 32768 % 32 = k.val / 2; omega
  | ⟨2, _⟩ => show (((b.val * 64 + k.val) * 32 + p.val) * 512 + q.val) / 16384 % 2 = k.val % 2; omega
  | ⟨3, _⟩ => show (((b.val * 64 + k.val) * 32 + p.val) * 512 + q.val) / 512 % 32 = p.val; omega
  | ⟨4, _⟩ => show (((b.val * 64 + k.val) * 32 + p.val) * 512 + q.val) % 512 = q.val; omega

/-- The contraction's left operand index at entry `(b, k, p, d)` and channel `q`. -/
theorem lidx_eq (b : Fin 32) (k : Fin 64) (p : Fin 32) (d q : Fin 512) : lidx_main_v7 (ix4 b k p d) q = ix4 b k p q := by
  funext a
  match a with
  | ⟨0, _⟩ => rfl
  | ⟨1, _⟩ => rfl
  | ⟨2, _⟩ => rfl
  | ⟨3, _⟩ => rfl

/-- Its right operand index. -/
theorem ridx_eq (b : Fin 32) (k : Fin 64) (p : Fin 32) (d q : Fin 512) : ridx_main_v7 (ix4 b k p d) q = ix2 q d := by
  funext a
  match a with
  | ⟨0, _⟩ => rfl
  | ⟨1, _⟩ => rfl

/-- The reference's result is the specification's tokens of the reshaped input. -/
theorem result_eq (x0 : (⟨S32x1024x1024, .f32⟩ : BufTy).Contents (Elt Ideal)) (x1 : (⟨S512x512, .f32⟩ : BufTy).Contents (Elt Ideal)) :
    val_main_v8 (F := Ideal) x0 x1 = Cert.Spec.tokens (val_main_v0 (F := Ideal) x0) x1 := by
  funext i
  obtain ⟨b, r, d, rfl⟩ : ∃ (b : Fin 32) (r : Fin 2048) (d : Fin 512), i = ix3 b r d := ⟨i 0, i 1, i 2, eq_ix3 i⟩
  have h1 : r.val < 2048 := r.isLt
  rw [val_main_v8_apply, flatten_idx, val_main_v7_apply, Cert.Spec.tokens_apply]
  unfold Cert.Spec.proj
  refine Finset.sum_congr rfl fun q _ => ?_
  rw [val_main_v6_apply, lidx_eq, ridx_eq, merge_idx, stack_apply]
  refine congrArg (fun j => val_main_v0 (F := Ideal) x0 j * x1 (ix2 q d)) (funext fun a => Fin.ext ?_)
  match a with
  | ⟨0, _⟩ => rfl
  | ⟨1, _⟩ => show r.val / 32 / 2 = r.val / 64; omega
  | ⟨2, _⟩ => rfl
  | ⟨3, _⟩ => rfl

end Cert.ReferenceIdeal.RefValue

end
-- ==== Proof.lean ====
/-
  The certificate's five claims.

  The kernel reads the input as 32 images of 32 x 32 pixels with 1024 channels, and for every image sends
  the two 512-channel halves of every pixel through one 512 x 512 weight, as ONE matrix product of the
  2048 half-pixels' rows by the weight; it stores the first half's 1024 rows at position 0 and the second
  half's at position 1 of a `32 x 2 x 32 x 512` block, and the program reads the blocks in row-major
  order as `32 x 2048 x 512` tokens.  The reference stacks the halves, merges (row, half), contracts the
  channels against the same weight and flattens to the same tokens.  On the extended reals both are, at
  token `(b, 64 h + 32 u + p, d)`, the sum over `q` of `x[b, 32 h + p, 512 u + q] * w[q, d]`
  (`Spec.tokens`), the same sum in the same order, so no law of arithmetic and no finiteness of the inputs is
  used: `KernelValue.run` is the kernel's side, `RefValue.result_eq` the reference's.

  The three frames are the generated ones (the reference's is its generated run with the result
  dropped); the idealization rewrote nothing, so `preserves` is `True`.
-/
import proofs.«128692_j66881230733751_2_alg».proof.Defs
import proofs.«128692_j66881230733751_2_alg».proof.Proof.Gen.Kernel
import proofs.«128692_j66881230733751_2_alg».proof.Proof.Gen.Kernel.Skeleton
import proofs.«128692_j66881230733751_2_alg».proof.Proof.Gen.Kernel.Launch
import proofs.«128692_j66881230733751_2_alg».proof.Proof.Gen.Kernel.Points
import proofs.«128692_j66881230733751_2_alg».proof.Proof.Gen.Kernel.Frame
import proofs.«128692_j66881230733751_2_alg».proof.Proof.Gen.KernelIdeal
import proofs.«128692_j66881230733751_2_alg».proof.Proof.Gen.KernelIdeal.Skeleton
import proofs.«128692_j66881230733751_2_alg».proof.Proof.Gen.KernelIdeal.Launch
import proofs.«128692_j66881230733751_2_alg».proof.Proof.Gen.KernelIdeal.Points
import proofs.«128692_j66881230733751_2_alg».proof.Proof.Gen.KernelIdeal.Frame
import proofs.«128692_j66881230733751_2_alg».proof.Proof.Gen.ReferenceIdeal
import proofs.«128692_j66881230733751_2_alg».proof.Proof.Gen.Pre_finite_inputs
import proofs.«128692_j66881230733751_2_alg».proof.Proof.Gen.ReferenceIdeal.Run
import proofs.«128692_j66881230733751_2_alg».proof.Proof.Gen.ReferenceIdeal.Read
import proofs.«128692_j66881230733751_2_alg».proof.Proof.KernelValue
import proofs.«128692_j66881230733751_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the input and the weight, both programs end with the result at
    `Spec.tokens` of the input reshaped to images of pixels and the weight. -/
theorem algebraic : Cert.algebraic_KernelIdeal_ReferenceIdeal := by
  intro m ρ m' ρ' _ hagree
  refine ⟨fun c => Cert.Spec.tokens
      (shapeCast Cert.KernelIdeal.S32x32x32x1024 (m ((c : Thread Cert.KernelIdeal.nD Cert.KernelIdeal.τ).loc Cert.KernelIdeal.main_arg0))
        Cert.KernelIdeal.Gen.shapeCasts_S32x1024x1024_S32x32x32x1024)
      (m ((c : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v8_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
